-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x17x128 : Shape := ⟨3, ![32768, 17, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S32768x17x128 : S_.BroadcastsInDim S32768x17x128 (![] : Fin 0 → Fin S32768x17x128.rank)
  reducesTo_S32768x17x128_S_d0_1_2 : S32768x17x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32768x17x128 .f32) (main_arg1 : FVec F S128x128 .f32) (main_arg2 : FVec F S128 .f32) (main_arg3 : FVec F S128x16 .f32) (main_arg4 : FVec F S16 .f32) : IVec S_ 1 :=
  let main_v0 : FVec F S32768x17x128 .f32 := Host.absf main_arg0
  let main_cst : FVec F S_ .f32 := constant S_ .f32 0x7F800000#32
  let main_v1 : FVec F S32768x17x128 .f32 := broadcastInDim S32768x17x128 ![] bcast_S_S32768x17x128 main_cst
  let main_v2 : IVec S32768x17x128 1 := cmpf .olt main_v0 main_v1
  let main_c : IVec S_ 1 := constantI S_ 1 1#1
  let main_v3 : IVec S_ 1 := (fun x v => Host.reduce IntOp.andi x v reducesTo_S32768x17x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_v13 main_v16
-- ==== Kernel.lean ====
abbrev S32768x17x128 : Shape := ⟨3, ![32768, 17, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S557056x128 : Shape := ⟨2, ![557056, 128]⟩
abbrev S2x32768 : Shape := ⟨2, ![2, 32768]⟩
abbrev S8704x128 : Shape := ⟨2, ![8704, 128]⟩
abbrev S2x512 : Shape := ⟨2, ![2, 512]⟩
abbrev S1x128 : Shape := ⟨2, ![1, 128]⟩
abbrev S8704x16 : Shape := ⟨2, ![8704, 16]⟩
abbrev S1x16 : Shape := ⟨2, ![1, 16]⟩
abbrev S512x17x16 : Shape := ⟨3, ![512, 17, 16]⟩
abbrev S512x1x16 : Shape := ⟨3, ![512, 1, 16]⟩
abbrev S512x16 : Shape := ⟨2, ![512, 16]⟩
abbrev S512 : Shape := ⟨1, ![512]⟩
abbrev S512x16x16 : Shape := ⟨3, ![512, 16, 16]⟩
abbrev S16x16 : Shape := ⟨2, ![16, 16]⟩
abbrev S1x16x16 : Shape := ⟨3, ![1, 16, 16]⟩
abbrev S1x512 : Shape := ⟨2, ![1, 512]⟩
abbrev S32768x2 : Shape := ⟨2, ![32768, 2]⟩

abbrev nBuf : Space → Nat
  | .hbm => 8
  | .vmem => 8
  | .smem => 0
  | _ => 0

abbrev bufTy : (tb : Table) → Fin (tcTables nBuf tb) → BufTy
  | .hbm, ⟨0, _⟩ => ⟨S32768x17x128, .f32⟩
  | .hbm, ⟨1, _⟩ => ⟨S128x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S557056x128, .f32⟩
  | .hbm, ⟨6, _⟩ => ⟨S2x32768, .f32⟩
  | .hbm, ⟨7, _⟩ => ⟨S32768x2, .f32⟩
  | .local _ .vmem, ⟨0, _⟩ => ⟨S8704x128, .f32⟩
  | .local _ .vmem, ⟨1, _⟩ => ⟨S8704x128, .f32⟩
  | .local _ .vmem, ⟨2, _⟩ => ⟨S128x128, .f32⟩
  | .local _ .vmem, ⟨3, _⟩ => ⟨S128, .f32⟩
  | .local _ .vmem, ⟨4, _⟩ => ⟨S128x16, .f32⟩
  | .local _ .vmem, ⟨5, _⟩ => ⟨S16, .f32⟩
  | .local _ .vmem, ⟨6, _⟩ => ⟨S2x512, .f32⟩
  | .local _ .vmem, ⟨7, _⟩ => ⟨S2x512, .f32⟩
  | _, _ => ⟨S32768x17x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8704x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32768x17x128_S557056x128 : S32768x17x128.ShapeCasts S557056x128
  inb_S8704x128_S8704x128_0_0 : ∀ a, (![0, 0] : Fin 2 → Nat) a + S8704x128.size a ≤ S8704x128.size a
  h_S8704x128 : 0 < S8704x128.numel
  shapeCasts_S8704x128_S8704x128 : S8704x128.ShapeCasts S8704x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8704x128 : S1x128.Broadcasts S8704x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S8704x16 : S1x16.Broadcasts S8704x16
  shapeCasts_S8704x16_S512x17x16 : S8704x16.ShapeCasts S512x17x16
  slices_S512x17x16_o0_0_0_S512x1x16 : S512x17x16.Slices ![0, 0, 0] S512x1x16
  shapeCasts_S512x1x16_S512x16 : S512x1x16.ShapeCasts S512x16
  reduces_S512x16_S512 : S512x16.Reduces [1] S512
  slices_S512x17x16_o0_1_0_S512x16x16 : S512x17x16.Slices ![0, 1, 0] S512x16x16
  iota_S16x16_d0_w32 : S16x16.Iotas .tc 32 [0]
  iota_S16x16_d1_w32 : S16x16.Iotas .tc 32 [1]
  natLt_1_32 : 1 < 32
  shapeCasts_S16x16_S1x16x16 : S16x16.ShapeCasts S1x16x16
  broadcasts_S1x16x16_S512x16x16 : S1x16x16.Broadcasts S512x16x16
  reduces_S512x16x16_S512x16 : S512x16x16.Reduces [2] S512x16
  shapeCasts_S512_S1x512 : S512.ShapeCasts S1x512
  concatenates_S1x512_S1x512_S2x512_d0 : Shape.Concatenates [S1x512, S1x512] S2x512 0
  inb_S2x512_S2x512_0_0 : ∀ a, (![0, 0] : Fin 2 → Nat) a + S2x512.size a ≤ S2x512.size a
  h_S2x512 : 0 < S2x512.numel
  transposes_S2x32768_S32768x2_1_0 : S2x32768.Transposes [1, 0] S32768x2
  dot_S8704x128_S128x128_S8704x128_1_0_0_1_n_n_wf : DotDims.WF S8704x128 S128x128 S8704x128 [1] [0] [0] [1] [] []
  dot_S8704x128_S128x16_S8704x16_1_0_0_1_n_n_wf : DotDims.WF S8704x128 S128x16 S8704x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8704x128.size a ≤ S557056x128.size a
  hwx0_0 : ∀ i : grid0.Coords, EltTy.bits .f32 = 32 ∨ (Rect.block (s := S557056x128) S8704x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512.size a ≤ S2x32768.size a
  hwx0_5 : ∀ i : grid0.Coords, EltTy.bits .f32 = 32 ∨ (Rect.block (s := S2x32768) S2x512.size (cc0_transform_5 i) (hinb0_5 i)).WholeWords (EltTy.packing .f32)

variable [Facts₀]

def dot_S8704x128_S128x128_S8704x128_1_0_0_1_n_n : DotDims S8704x128 S128x128 S8704x128 where
  lhsContracting := [1]
  rhsContracting := [0]
  lhsNonContracting := [0]
  rhsNonContracting := [1]
  lhsBatch := []
  rhsBatch := []
  wf := dot_S8704x128_S128x128_S8704x128_1_0_0_1_n_n_wf
def dot_S8704x128_S128x16_S8704x16_1_0_0_1_n_n : DotDims S8704x128 S128x16 S8704x16 where
  lhsContracting := [1]
  rhsContracting := [0]
  lhsNonContracting := [0]
  rhsNonContracting := [1]
  lhsBatch := []
  rhsBatch := []
  wf := dot_S8704x128_S128x16_S8704x16_1_0_0_1_n_n_wf

abbrev win0_0 : Pipeline.Window sig grid0 :=
  Pipeline.Window.ofSpec (Memref.whole main_v0) S8704x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x17x128 : Shape := ⟨3, ![32768, 17, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1x128 : Shape := ⟨3, ![1, 1, 128]⟩
abbrev S_ : Shape := ⟨0, ![]⟩
abbrev S32768x17x16 : Shape := ⟨3, ![32768, 17, 16]⟩
abbrev S1x1x16 : Shape := ⟨3, ![1, 1, 16]⟩
abbrev S32768x1x16 : Shape := ⟨3, ![32768, 1, 16]⟩
abbrev S32768x16 : Shape := ⟨2, ![32768, 16]⟩
abbrev S32768 : Shape := ⟨1, ![32768]⟩
abbrev S32768x16x16 : Shape := ⟨3, ![32768, 16, 16]⟩
abbrev S16x1 : Shape := ⟨2, ![16, 1]⟩
abbrev S16x2 : Shape := ⟨2, ![16, 2]⟩
abbrev S32768x1 : Shape := ⟨2, ![32768, 1]⟩
abbrev S32768x2 : Shape := ⟨2, ![32768, 2]⟩

abbrev nBuf : Space → Nat
  | .hbm => 60
  | .vmem => 0
  | .smem => 0
  | _ => 0

abbrev bufTy : (tb : Table) → Fin (tcTables nBuf tb) → BufTy
  | .hbm, ⟨0, _⟩ => ⟨S32768x17x128, .f32⟩
  | .hbm, ⟨1, _⟩ => ⟨S128x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S32768x17x128, .f32⟩
  | .hbm, ⟨6, _⟩ => ⟨S1x1x128, .f32⟩
  | .hbm, ⟨7, _⟩ => ⟨S32768x17x128, .f32⟩
  | .hbm, ⟨8, _⟩ => ⟨S32768x17x128, .f32⟩
  | .hbm, ⟨9, _⟩ => ⟨S_, .f32⟩
  | .hbm, ⟨10, _⟩ => ⟨S32768x17x128, .f32⟩
  | .hbm, ⟨11, _⟩ => ⟨S32768x17x128, .f32⟩
  | .hbm, ⟨12, _⟩ => ⟨S32768x17x16, .f32⟩
  | .hbm, ⟨13, _⟩ => ⟨S1x1x16, .f32⟩
  | .hbm, ⟨14, _⟩ => ⟨S32768x17x16, .f32⟩
  | .hbm, ⟨15, _⟩ => ⟨S32768x17x16, .f32⟩
  | .hbm, ⟨16, _⟩ => ⟨S_, .f32⟩
  | .hbm, ⟨17, _⟩ => ⟨S32768x17x16, .f32⟩
  | .hbm, ⟨18, _⟩ => ⟨S32768x17x16, .f32⟩
  | .hbm, ⟨19, _⟩ => ⟨S32768x17x16, .f32⟩
  | .hbm, ⟨20, _⟩ => ⟨S32768x17x16, .f32⟩
  | .hbm, ⟨21, _⟩ => ⟨S32768x17x16, .i1⟩
  | .hbm, ⟨22, _⟩ => ⟨S32768x17x16, .f32⟩
  | .hbm, ⟨23, _⟩ => ⟨S32768x17x16, .f32⟩
  | .hbm, ⟨24, _⟩ => ⟨S32768x17x16, .f32⟩
  | .hbm, ⟨25, _⟩ => ⟨S32768x17x16, .f32⟩
  | .hbm, ⟨26, _⟩ => ⟨S32768x17x16, .f32⟩
  | .hbm, ⟨27, _⟩ => ⟨S32768x17x16, .f32⟩
  | .hbm, ⟨28, _⟩ => ⟨S32768x17x16, .f32⟩
  | .hbm, ⟨29, _⟩ => ⟨S32768x17x16, .f32⟩
  | .hbm, ⟨30, _⟩ => ⟨S32768x1x16, .f32⟩
  | .hbm, ⟨31, _⟩ => ⟨S32768x16, .f32⟩
  | .hbm, ⟨32, _⟩ => ⟨S_, .f32⟩
  | .hbm, ⟨33, _⟩ => ⟨S32768, .f32⟩
  | .hbm, ⟨34, _⟩ => ⟨S32768x16x16, .f32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S16x1, .i32⟩
  | .hbm, ⟨52, _⟩ => ⟨S16x1, .i32⟩
  | .hbm, ⟨53, _⟩ => ⟨S16x2, .i32⟩
  | .hbm, ⟨54, _⟩ => ⟨S32768x16, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S32768x1, .f32⟩
  | .hbm, ⟨59, _⟩ => ⟨S32768x2, .f32⟩
  | _, _ => ⟨S32768x17x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_call2_v0 : Ref sig .tc := ⟨.hbm, 35, rfl⟩
abbrev main_call2_v1 : Ref sig .tc := ⟨.hbm, 36, rfl⟩
abbrev main_call2_c : Ref sig .tc := ⟨.hbm, 37, rfl⟩
abbrev main_call2_v2 : Ref sig .tc := ⟨.hbm, 38, rfl⟩
abbrev main_call2_v3 : Ref sig .tc := ⟨.hbm, 39, rfl⟩
abbrev main_call2_c_0 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_c_1 : Ref sig .tc := ⟨.hbm, 44, rfl⟩
abbrev main_call2_v7 : Ref sig .tc := ⟨.hbm, 45, rfl⟩
abbrev main_call2_v8 : Ref sig .tc := ⟨.hbm, 46, rfl⟩
abbrev main_call2_c_2 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v14 : Ref sig .tc := ⟨.hbm, 54, rfl⟩
abbrev main_cst_0 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32768x17x128_0_1_2 : S1x1x128.BroadcastsInDim S32768x17x128 (![0, 1, 2] : Fin 3 → Fin S32768x17x128.rank)
  bcast_S_S32768x17x128 : S_.BroadcastsInDim S32768x17x128 (![] : Fin 0 → Fin S32768x17x128.rank)
  bcast_S16_S1x1x16_2 : S16.BroadcastsInDim S1x1x16 (![2] : Fin 1 → Fin S1x1x16.rank)
  bcast_S1x1x16_S32768x17x16_0_1_2 : S1x1x16.BroadcastsInDim S32768x17x16 (![0, 1, 2] : Fin 3 → Fin S32768x17x16.rank)
  bcast_S_S32768x17x16 : S_.BroadcastsInDim S32768x17x16 (![] : Fin 0 → Fin S32768x17x16.rank)
  slices_S32768x17x16_S32768x1x16_0_0_0 : S32768x17x16.Slices ![0, 0, 0] S32768x1x16
  shapeCasts_S32768x1x16_S32768x16 : S32768x1x16.ShapeCasts S32768x16
  reducesTo_S32768x16_S32768_d1 : S32768x16.ReducesTo [1] S32768
  h_S_ : 0 < S_.numel
  slices_S32768x17x16_S32768x16x16_0_1_0 : S32768x17x16.Slices ![0, 1, 0] S32768x16x16
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S32768_S32768x1_0 : S32768.BroadcastsInDim S32768x1 (![0] : Fin 1 → Fin S32768x1.rank)
  concatenates_S32768x1_S32768x1_S32768x2_d1 : Shape.Concatenates [S32768x1, S32768x1] S32768x2 1
  dot_S32768x17x128_S128x128_S32768x17x128_2_0_01_1_n_n_wf : DotDims.WF S32768x17x128 S128x128 S32768x17x128 [2] [0] [0, 1] [1] [] []
  dot_S32768x17x128_S128x16_S32768x17x16_2_0_01_1_n_n_wf : DotDims.WF S32768x17x128 S128x16 S32768x17x16 [2] [0] [0, 1] [1] [] []
  gather_S32768x16x16_S16x2_S32768x16_0_12_n_n_12_1_3276811_wf : GatherDims.WF S32768x16x16 S16x2 S32768x16 [0] [1, 2] [] [1, 2] [] 1 ![32768, 1, 1]

variable [Facts₀]

def dot_S32768x17x128_S128x128_S32768x17x128_2_0_01_1_n_n : DotDims S32768x17x128 S128x128 S32768x17x128 where
  lhsContracting := [2]
  rhsContracting := [0]
  lhsNonContracting := [0, 1]
  rhsNonContracting := [1]
  lhsBatch := []
  rhsBatch := []
  wf := dot_S32768x17x128_S128x128_S32768x17x128_2_0_01_1_n_n_wf
def dot_S32768x17x128_S128x16_S32768x17x16_2_0_01_1_n_n : DotDims S32768x17x128 S128x16 S32768x17x16 where
  lhsContracting := [2]
  rhsContracting := [0]
  lhsNonContracting := [0, 1]
  rhsNonContracting := [1]
  lhsBatch := []
  rhsBatch := []
  wf := dot_S32768x17x128_S128x16_S32768x17x16_2_0_01_1_n_n_wf
def gather_S32768x16x16_S16x2_S32768x16_0_12_n_n_12_1_3276811 : GatherDims S32768x16x16 S16x2 S32768x16 where
  offsetDims := [0]
  collapsedSliceDims := [1, 2]
  operandBatchingDims := []
  startIndicesBatchingDims := []
  startIndexMap := [1, 2]
  indexVectorDim := 1
  sliceSizes := ![32768, 1, 1]
  wf := gather_S32768x16x16_S16x2_S32768x16_0_12_n_n_12_1_3276811_wf

class Facts : Prop extends Facts₀ where

variable [Facts]
-- ==== Proof.Spec.lean ====
/-
  The function that both programs compute, on the extended reals.

  For a batch entry b (of 32768), a neighbour slot s (of 17) and an action a (of 16), with x of shape [32768, 17, 128],
  W1 [128, 128], b1 [128], W2 [128, 16], b2 [16]:

    hidden b s h = max (Σ_e x[b,s,e] · W1[e,h] + b1[h]) 0
    logit  b s a = Σ_h hidden b s h · W2[h,a] + b2[a]
    flow   b s a = softplus (logit b s a),      softplus l = max l 0 + log (1 + exp (−|l|))
    Fout b = Σ_a flow b 0 a                     (the outgoing flow of slot 0)
    Fin  b = Σ_i flow b (1+i) i                 (the diagonal of slots 1..16 against the actions)

  and the result is the [32768, 2] array whose row b is (Fin b, Fout b).

  Everything is stated for ONE row of 128 features first (a row of x is what either program feeds its two layers), so
  that the two programs' different groupings of the rows — 17 consecutive rows per batch entry on one side, a rank-3
  array on the other — meet in one place.

  The laws used to join the two texts hold at the infinities as well, so no finiteness is needed:
  a comparison "l ≠ l" is false on a linear order, x − 0 = x, 0 − y = −y, y · 0 = 0 and y · 1 = y.
-/
import Idealize.ShloMosaic.PureOps.Ideal
import Idealize.ShloMosaic.PureOps.Ideal.Laws
import Idealize.ShloMosaic.Lib.ValueIdx

noncomputable section

namespace Cert.Flow

open Idealize.ShloMosaic Idealize.ShloMosaic.ValueIdx

/-! ## Scalar laws -/

/-- softplus, in the numerically stable form both programs spell: max l 0 + log (1 + exp (−|l|)), with |l| = max l (−l). -/
def softplus (l : EReal) : EReal := max l 0 + Ideal.log1p (Ideal.exp (-(max l (-l))))

/-- On a linear order nothing differs from itself: the "ordered and not equal" test of a value against itself is 0. -/
theorem cmp_one_self (x : EReal) : Ideal.cmp .one x x = 0#1 := by simp [Ideal.cmp]

/-- The same for the "unordered or not equal" test. -/
theorem cmp_une_self (x : EReal) : Ideal.cmp .une x x = 0#1 := by simp [Ideal.cmp]

/-- The guarded form that negates by 0 − |d|, d = l − 0: the guard never fires and what is left is softplus. -/
theorem softplus_of_sub (l z : EReal) (hz : z = 0) :
    Scalar.select (Ideal.cmp .one (l - z) (l - z)) (l + z)
      (max l z + Ideal.log1p (Ideal.exp (z - max (l - z) (-(l - z))))) = softplus l := by
  subst hz
  rw [cmp_one_self, select_zero, sub_zero, zero_sub]
  rfl

/-- The guarded form that negates by −|d|: the same. -/
theorem softplus_of_neg (l z : EReal) (hz : z = 0) :
    Scalar.select (Ideal.cmp .une (l - z) (l - z)) (l + z)
      (max l z + Ideal.log1p (Ideal.exp (-(max (l - z) (-(l - z)))))) = softplus l := by
  subst hz
  rw [cmp_une_self, select_zero, sub_zero]
  rfl

/-- The 0/1 mask "i = j" as an integer word: the one-bit equality test widened to 32 bits and read signed. -/
theorem mask_int : ∀ i j : Fin 16,
    ((IntOp.cmpi .eq (BitVec.ofNat 32 i.val) (BitVec.ofNat 32 j.val)).setWidth 32).toInt = if i = j then 1 else 0 := by
  decide

/-- The mask as an extended real. -/
theorem mask_val (i j : Fin 16) :
    ((((IntOp.cmpi .eq (BitVec.ofNat 32 i.val) (BitVec.ofNat 32 j.val)).setWidth 32).toInt : ℝ) : EReal)
      = if i = j then 1 else 0 := by
  rw [mask_int]
  split <;> simp

/-- Summing a row against the mask of position i picks out entry i: y · 0 = 0 and y · 1 = y for every extended real. -/
theorem sum_mul_mask (f : Fin 16 → EReal) (i : Fin 16) :
    ∑ j : Fin 16, f j * (if i = j then (1 : EReal) else 0) = f i := by
  simp [mul_ite, Finset.sum_ite_eq]

/-! ## One row through the two layers -/

section Row

variable (xr : Fin 128 → EReal) (w1 : (⟨2, ![128, 128]⟩ : Shape).Idx → EReal) (b1 : (⟨1, ![128]⟩ : Shape).Idx → EReal)
  (w2 : (⟨2, ![128, 16]⟩ : Shape).Idx → EReal) (b2 : (⟨1, ![16]⟩ : Shape).Idx → EReal)

/-- The hidden unit h of a row: relu of the first affine layer. -/
def hiddenRow (h : Fin 128) : EReal := max (∑ e : Fin 128, xr e * w1 (ix2 e h) + b1 (ix1 h)) 0

/-- The logit of action a: the second affine layer. -/
def logitRow (a : Fin 16) : EReal := ∑ h : Fin 128, hiddenRow xr w1 b1 h * w2 (ix2 h a) + b2 (ix1 a)

/-- The positive flow of action a. -/
def flowRow (a : Fin 16) : EReal := softplus (logitRow xr w1 b1 w2 b2 a)

end Row

/-! ## The whole result -/

section Whole

variable (x : (⟨3, ![32768, 17, 128]⟩ : Shape).Idx → EReal) (w1 : (⟨2, ![128, 128]⟩ : Shape).Idx → EReal)
  (b1 : (⟨1, ![128]⟩ : Shape).Idx → EReal) (w2 : (⟨2, ![128, 16]⟩ : Shape).Idx → EReal) (b2 : (⟨1, ![16]⟩ : Shape).Idx → EReal)

/-- flow b s a: the flow of action a at the row (b, s) of x. -/
def flow (b : Fin 32768) (s : Fin 17) (a : Fin 16) : EReal := flowRow (fun e => x (ix3 b s e)) w1 b1 w2 b2 a

/-- Fout b: the flows of slot 0, summed over the actions. -/
def fout (b : Fin 32768) : EReal := ∑ a : Fin 16, flow x w1 b1 w2 b2 b 0 a

/-- Fin b: the flow of action i at slot 1 + i, summed over i. -/
def fin (b : Fin 32768) : EReal := ∑ i : Fin 16, flow x w1 b1 w2 b2 b ⟨1 + i.val, by omega⟩ i

/-- The result with the batch along axis 1: row 0 is Fin, row 1 is Fout. -/
def resultT : (⟨2, ![2, 32768]⟩ : Shape).Idx → EReal := fun j =>
  if (j 0).val = 0 then fin x w1 b1 w2 b2 ⟨(j 1).val, idx2_lt1 j⟩ else fout x w1 b1 w2 b2 ⟨(j 1).val, idx2_lt1 j⟩

/-- The result: row b is (Fin b, Fout b). -/
def result : (⟨2, ![32768, 2]⟩ : Shape).Idx → EReal := fun j =>
  if (j 1).val = 0 then fin x w1 b1 w2 b2 ⟨(j 0).val, idx2_lt0 j⟩ else fout x w1 b1 w2 b2 ⟨(j 0).val, idx2_lt0 j⟩

end Whole

end Cert.Flow

end
-- ==== Proof.Block.lean ====
/-
  What the kernel's body leaves in its output block, index by index.

  A block holds 8704 = 512 · 17 consecutive rows of the flattened input: rows 17p … 17p + 16 are the 17 neighbour slots
  of the block's batch entry p. The body sends every row through the two layers and softplus (a [8704, 16] array of
  flows), regroups it as [512, 17, 16], and writes a [2, 512] block:

    row 0, column p :  Σ_i Σ_j flow[p, 1+i, j] · [i = j]      (the diagonal picked out by a 0/1 mask)
    row 1, column p :  Σ_a flow[p, 0, a].

  The lemmas below read each operation of the body at an index: the two matrix products as sums over the contracted
  axis, the bias rows broadcast down the rows, the regrouping by row-major position, the two slices, the mask, the lane
  sums, and the join of the two rows.
-/
import proofs.«110767_j15925738733604_2_alg».proof.Proof.Gen.KernelIdeal.Skeleton
import proofs.«110767_j15925738733604_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The two matrix products -/

theorem dot1_lhs0 (i : S8704x128.Idx) (q : dot_S8704x128_S128x128_S8704x128_1_0_0_1_n_n.contr.Idx) : (dot_S8704x128_S128x128_S8704x128_1_0_0_1_n_n.lhsIdx i q 0).val = (i 0).val := by
  unfold DotDims.lhsIdx
  rw [dif_neg (show ¬(0 : Fin S8704x128.rank) ∈ dot_S8704x128_S128x128_S8704x128_1_0_0_1_n_n.lhsBatch by decide), dif_pos (show (0 : Fin S8704x128.rank) ∈ dot_S8704x128_S128x128_S8704x128_1_0_0_1_n_n.lhsNonContracting by decide)]
  rfl
theorem dot1_lhs1 (i : S8704x128.Idx) (q : dot_S8704x128_S128x128_S8704x128_1_0_0_1_n_n.contr.Idx) : (dot_S8704x128_S128x128_S8704x128_1_0_0_1_n_n.lhsIdx i q 1).val = (q ⟨0, by decide⟩).val :=
  dot_S8704x128_S128x128_S8704x128_1_0_0_1_n_n.lhsIdx_val_of_single rfl i q
theorem dot1_rhs0 (i : S8704x128.Idx) (q : dot_S8704x128_S128x128_S8704x128_1_0_0_1_n_n.contr.Idx) : (dot_S8704x128_S128x128_S8704x128_1_0_0_1_n_n.rhsIdx i q 0).val = (q ⟨0, by decide⟩).val :=
  dot_S8704x128_S128x128_S8704x128_1_0_0_1_n_n.rhsIdx_val_of_single rfl i q
theorem dot1_rhs1 (i : S8704x128.Idx) (q : dot_S8704x128_S128x128_S8704x128_1_0_0_1_n_n.contr.Idx) : (dot_S8704x128_S128x128_S8704x128_1_0_0_1_n_n.rhsIdx i q 1).val = (i 1).val := by
  unfold DotDims.rhsIdx
  rw [dif_neg (show ¬(1 : Fin S128x128.rank) ∈ dot_S8704x128_S128x128_S8704x128_1_0_0_1_n_n.rhsBatch by decide), dif_pos (show (1 : Fin S128x128.rank) ∈ dot_S8704x128_S128x128_S8704x128_1_0_0_1_n_n.rhsNonContracting by decide)]
  rfl

/-- [8704, 128] × [128, 128] into a zero accumulator: entry (r, h) is Σ_k A[r, k] · B[k, h]. -/
theorem dot1_apply (A : FVec Ideal S8704x128 .bf16) (B : FVec Ideal S128x128 .bf16) (r : Fin 8704) (h : Fin 128) :
    matmul dot_S8704x128_S128x128_S8704x128_1_0_0_1_n_n none A B (constant S8704x128 .f32 0x00000000#32) (ix2 r h)
      = ∑ k : Fin 128, A (ix2 r k) * B (ix2 k h) := by
  simp only [matmul]
  rw [Ideal.matmul_constant_zero_apply, ← Equiv.sum_comp (contrEquiv1 dot_S8704x128_S128x128_S8704x128_1_0_0_1_n_n 128 rfl rfl).symm]
  refine Finset.sum_congr rfl fun k _ => ?_
  have hk := contrEquiv1_symm_val dot_S8704x128_S128x128_S8704x128_1_0_0_1_n_n 128 rfl rfl k
  have el : dot_S8704x128_S128x128_S8704x128_1_0_0_1_n_n.lhsIdx (ix2 r h) ((contrEquiv1 dot_S8704x128_S128x128_S8704x128_1_0_0_1_n_n 128 rfl rfl).symm k) = ix2 r k := funext fun c => Fin.ext (by
    match c with
    | ⟨0, _⟩ => exact dot1_lhs0 _ _
    | ⟨1, _⟩ => exact (dot1_lhs1 _ _).trans hk)
  have er : dot_S8704x128_S128x128_S8704x128_1_0_0_1_n_n.rhsIdx (ix2 r h) ((contrEquiv1 dot_S8704x128_S128x128_S8704x128_1_0_0_1_n_n 128 rfl rfl).symm k) = ix2 k h := funext fun c => Fin.ext (by
    match c with
    | ⟨0, _⟩ => exact (dot1_rhs0 _ _).trans hk
    | ⟨1, _⟩ => exact dot1_rhs1 _ _)
  rw [el, er]

theorem dot2_lhs0 (i : S8704x16.Idx) (q : dot_S8704x128_S128x16_S8704x16_1_0_0_1_n_n.contr.Idx) : (dot_S8704x128_S128x16_S8704x16_1_0_0_1_n_n.lhsIdx i q 0).val = (i 0).val := by
  unfold DotDims.lhsIdx
  rw [dif_neg (show ¬(0 : Fin S8704x128.rank) ∈ dot_S8704x128_S128x16_S8704x16_1_0_0_1_n_n.lhsBatch by decide), dif_pos (show (0 : Fin S8704x128.rank) ∈ dot_S8704x128_S128x16_S8704x16_1_0_0_1_n_n.lhsNonContracting by decide)]
  rfl
theorem dot2_lhs1 (i : S8704x16.Idx) (q : dot_S8704x128_S128x16_S8704x16_1_0_0_1_n_n.contr.Idx) : (dot_S8704x128_S128x16_S8704x16_1_0_0_1_n_n.lhsIdx i q 1).val = (q ⟨0, by decide⟩).val :=
  dot_S8704x128_S128x16_S8704x16_1_0_0_1_n_n.lhsIdx_val_of_single rfl i q
theorem dot2_rhs0 (i : S8704x16.Idx) (q : dot_S8704x128_S128x16_S8704x16_1_0_0_1_n_n.contr.Idx) : (dot_S8704x128_S128x16_S8704x16_1_0_0_1_n_n.rhsIdx i q 0).val = (q ⟨0, by decide⟩).val :=
  dot_S8704x128_S128x16_S8704x16_1_0_0_1_n_n.rhsIdx_val_of_single rfl i q
theorem dot2_rhs1 (i : S8704x16.Idx) (q : dot_S8704x128_S128x16_S8704x16_1_0_0_1_n_n.contr.Idx) : (dot_S8704x128_S128x16_S8704x16_1_0_0_1_n_n.rhsIdx i q 1).val = (i 1).val := by
  unfold DotDims.rhsIdx
  rw [dif_neg (show ¬(1 : Fin S128x16.rank) ∈ dot_S8704x128_S128x16_S8704x16_1_0_0_1_n_n.rhsBatch by decide), dif_pos (show (1 : Fin S128x16.rank) ∈ dot_S8704x128_S128x16_S8704x16_1_0_0_1_n_n.rhsNonContracting by decide)]
  rfl

/-- [8704, 128] × [128, 16] into a zero accumulator: entry (r, a) is Σ_k A[r, k] · B[k, a]. -/
theorem dot2_apply (A : FVec Ideal S8704x128 .bf16) (B : FVec Ideal S128x16 .bf16) (r : Fin 8704) (a : Fin 16) :
    matmul dot_S8704x128_S128x16_S8704x16_1_0_0_1_n_n none A B (constant S8704x16 .f32 0x00000000#32) (ix2 r a)
      = ∑ k : Fin 128, A (ix2 r k) * B (ix2 k a) := by
  simp only [matmul]
  rw [Ideal.matmul_constant_zero_apply, ← Equiv.sum_comp (contrEquiv1 dot_S8704x128_S128x16_S8704x16_1_0_0_1_n_n 128 rfl rfl).symm]
  refine Finset.sum_congr rfl fun k _ => ?_
  have hk := contrEquiv1_symm_val dot_S8704x128_S128x16_S8704x16_1_0_0_1_n_n 128 rfl rfl k
  have el : dot_S8704x128_S128x16_S8704x16_1_0_0_1_n_n.lhsIdx (ix2 r a) ((contrEquiv1 dot_S8704x128_S128x16_S8704x16_1_0_0_1_n_n 128 rfl rfl).symm k) = ix2 r k := funext fun c => Fin.ext (by
    match c with
    | ⟨0, _⟩ => exact dot2_lhs0 _ _
    | ⟨1, _⟩ => exact (dot2_lhs1 _ _).trans hk)
  have er : dot_S8704x128_S128x16_S8704x16_1_0_0_1_n_n.rhsIdx (ix2 r a) ((contrEquiv1 dot_S8704x128_S128x16_S8704x16_1_0_0_1_n_n 128 rfl rfl).symm k) = ix2 k a := funext fun c => Fin.ext (by
    match c with
    | ⟨0, _⟩ => exact (dot2_rhs0 _ _).trans hk
    | ⟨1, _⟩ => exact dot2_rhs1 _ _)
  rw [el, er]

/-! ## The bias rows -/

/-- A [128] vector as one row, repeated down 8704 rows: entry (r, h) is v[h]. -/
theorem bias1_apply (v : FVec Ideal S128 .f32) (hs : S128.ShapeCasts S1x128) (hb : S1x128.Broadcasts S8704x128)
    (r : Fin 8704) (h : Fin 128) : broadcastTo S8704x128 (shapeCast S1x128 v hs) hb (ix2 r h) = v (ix1 h) :=
  (broadcastTo_1b_ab_apply _ hb r h).trans (shapeCast_a_1a_apply v hs 0 h)

/-- A [16] vector as one row, repeated down 8704 rows: entry (r, a) is v[a]. -/
theorem bias2_apply (v : FVec Ideal S16 .f32) (hs : S16.ShapeCasts S1x16) (hb : S1x16.Broadcasts S8704x16)
    (r : Fin 8704) (a : Fin 16) : broadcastTo S8704x16 (shapeCast S1x16 v hs) hb (ix2 r a) = v (ix1 a) :=
  (broadcastTo_1b_ab_apply _ hb r a).trans (shapeCast_a_1a_apply v hs 0 a)

/-! ## The layers on a block row -/

/-- The hidden units of block row r: relu of the first affine layer of that row. -/
theorem layer1_apply (A : FVec Ideal S8704x128 .bf16) (B : FVec Ideal S128x128 .bf16) (v : FVec Ideal S128 .f32)
    (hs : S128.ShapeCasts S1x128) (hb : S1x128.Broadcasts S8704x128) (r : Fin 8704) (h : Fin 128) :
    maximumf (addf (matmul dot_S8704x128_S128x128_S8704x128_1_0_0_1_n_n none A B (constant S8704x128 .f32 0x00000000#32))
        (broadcastTo S8704x128 (shapeCast S1x128 v hs) hb)) (broadcast S8704x128 (Scalar.ofBits (F := Ideal) .f32 0x00000000#32)) (ix2 r h)
      = Flow.hiddenRow (fun e => A (ix2 r e)) B v h := by
  show max (matmul dot_S8704x128_S128x128_S8704x128_1_0_0_1_n_n none A B (constant S8704x128 .f32 0x00000000#32) (ix2 r h)
      + broadcastTo S8704x128 (shapeCast S1x128 v hs) hb (ix2 r h)) (Ideal.ofBits .f32 0x00000000#32) = _
  rw [dot1_apply, bias1_apply, Ideal.ofBits_zero_f32]
  rfl

/-- The logits of block row r: the second affine layer applied to that row's hidden units. -/
theorem layer2_apply (Hd : FVec Ideal S8704x128 .bf16) (B : FVec Ideal S128x16 .bf16) (v : FVec Ideal S16 .f32)
    (hs : S16.ShapeCasts S1x16) (hb : S1x16.Broadcasts S8704x16) (r : Fin 8704) (a : Fin 16) :
    addf (matmul dot_S8704x128_S128x16_S8704x16_1_0_0_1_n_n none Hd B (constant S8704x16 .f32 0x00000000#32))
        (broadcastTo S8704x16 (shapeCast S1x16 v hs) hb) (ix2 r a)
      = ∑ h : Fin 128, Hd (ix2 r h) * B (ix2 h a) + v (ix1 a) := by
  show matmul dot_S8704x128_S128x16_S8704x16_1_0_0_1_n_n none Hd B (constant S8704x16 .f32 0x00000000#32) (ix2 r a)
      + broadcastTo S8704x16 (shapeCast S1x16 v hs) hb (ix2 r a) = _
  rw [dot2_apply, bias2_apply]

/-- The guarded softplus of a whole array, read at an index. -/
theorem softplus_vec_apply {S : Shape} (L : FVec Ideal S .f32) (i : S.Idx) :
    select (cmpf .one (subf L (broadcast S (Scalar.ofBits (F := Ideal) .f32 0x00000000#32))) (subf L (broadcast S (Scalar.ofBits (F := Ideal) .f32 0x00000000#32))))
      (addf L (broadcast S (Scalar.ofBits (F := Ideal) .f32 0x00000000#32)))
      (addf (maximumf L (broadcast S (Scalar.ofBits (F := Ideal) .f32 0x00000000#32)))
        (log1p (exp (subf (broadcast S (Scalar.ofBits (F := Ideal) .f32 0x00000000#32))
          (absf (subf L (broadcast S (Scalar.ofBits (F := Ideal) .f32 0x00000000#32)))))))) i
      = Flow.softplus (L i) :=
  Flow.softplus_of_sub (L i) _ Ideal.ofBits_zero_f32

/-! ## The regrouping and the slices -/

/-- [8704, 16] viewed as [512, 17, 16]: entry (p, s, a) is row 17p + s. -/
theorem regroup_apply {α : Type} (v : S8704x16.Idx → α) (h : S8704x16.ShapeCasts S512x17x16) (p : Fin 512) (s : Fin 17) (a : Fin 16) :
    shapeCast S512x17x16 v h (ix3 p s a) = v (ix2 ⟨p.val * 17 + s.val, by omega⟩ a) :=
  shapeCast_apply v h _ _ (by
    rw [Shape.rowMajor_val_two, Shape.rowMajor_val_three]
    rfl)

/-- Slot 0 of every batch entry, as a [512, 16] array. -/
theorem slot0_apply {α : Type} (v : S512x17x16.Idx → α) (hsl : S512x17x16.Slices ![0, 0, 0] S512x1x16) (hc : S512x1x16.ShapeCasts S512x16)
    (p : Fin 512) (a : Fin 16) :
    shapeCast S512x16 (extractStridedSlice S512x1x16 ![0, 0, 0] v hsl) hc (ix2 p a) = v (ix3 p (0 : Fin 17) a) := by
  refine (shapeCast_apply _ hc _ (ix3 p (0 : Fin 1) a) (by
    rw [Shape.rowMajor_val_three, Shape.rowMajor_val_two]
    show (p.val * 1 + 0) * 16 + a.val = p.val * 16 + a.val
    omega)).trans ?_
  exact extractStridedSlice_apply ![0, 0, 0] v hsl (ix3 p (0 : Fin 1) a) (ix3 p (0 : Fin 17) a) (fun d => by
    match d with
    | ⟨0, _⟩ => show p.val = 0 + p.val; omega
    | ⟨1, _⟩ => rfl
    | ⟨2, _⟩ => show a.val = 0 + a.val; omega)

/-- Slots 1..16 of every batch entry: entry (p, i, j) is slot 1 + i. -/
theorem slots_apply {α : Type} (v : S512x17x16.Idx → α) (hsl : S512x17x16.Slices ![0, 1, 0] S512x16x16)
    (p : Fin 512) (i j : Fin 16) :
    extractStridedSlice S512x16x16 ![0, 1, 0] v hsl (ix3 p i j) = v (ix3 p ⟨1 + i.val, by omega⟩ j) :=
  extractStridedSlice_apply ![0, 1, 0] v hsl (ix3 p i j) (ix3 p (⟨1 + i.val, by omega⟩ : Fin 17) j) (fun d => by
    match d with
    | ⟨0, _⟩ => show p.val = 0 + p.val; omega
    | ⟨1, _⟩ => rfl
    | ⟨2, _⟩ => show j.val = 0 + j.val; omega)

/-! ## The lane sums -/

/-- A [512, 16] array summed along its second axis, from the neutral accumulator. -/
theorem sum16_apply (v : FVec Ideal S512x16 .f32) (hφ : FKind.Formats .f32)
    (hacc : (0x00000000#32 : BitVec 32) = FKind.add.neutral .f32 hφ) (p : Fin 512) :
    multiReduction .add [1] S512 v 0x00000000#32 reduces_S512x16_S512 hφ hacc (ix1 p) = ∑ a : Fin 16, v (ix2 p a) :=
  (Ideal.multiReduction_add_single v 0x00000000#32 reduces_S512x16_S512 hφ hacc (ix1 p)).trans
    (Finset.sum_congr rfl fun a _ => congrArg v (funext fun d => Fin.ext (by
      match d with | ⟨0, _⟩ => rfl | ⟨1, _⟩ => rfl)))

/-- A [512, 16, 16] array summed along its last axis, from the neutral accumulator. -/
theorem sum16x16_apply (v : FVec Ideal S512x16x16 .f32) (hφ : FKind.Formats .f32)
    (hacc : (0x00000000#32 : BitVec 32) = FKind.add.neutral .f32 hφ) (p : Fin 512) (i : Fin 16) :
    multiReduction .add [2] S512x16 v 0x00000000#32 reduces_S512x16x16_S512x16 hφ hacc (ix2 p i) = ∑ j : Fin 16, v (ix3 p i j) :=
  (Ideal.multiReduction_add_single v 0x00000000#32 reduces_S512x16x16_S512x16 hφ hacc (ix2 p i)).trans
    (Finset.sum_congr rfl fun j _ => congrArg v (funext fun d => Fin.ext (by
      match d with | ⟨0, _⟩ => rfl | ⟨1, _⟩ => rfl | ⟨2, _⟩ => rfl)))

/-! ## The payloads -/

section Payloads

variable (X0 : Vec Ideal S8704x128 .f32) (X1 : Vec Ideal S128x128 .f32) (X2 : Vec Ideal S128 .f32)
  (X3 : Vec Ideal S128x16 .f32) (X4 : Vec Ideal S16 .f32)

/-- The regrouped flows: entry (p, s, a) is the flow of action a on block row 17p + s. -/
theorem flows_apply (p : Fin 512) (s : Fin 17) (a : Fin 16) :
    k0_pay2 (F := Ideal) X0 X1 X2 X3 X4 (ix3 p s a)
      = Flow.flowRow (fun e => X0 (ix2 ⟨p.val * 17 + s.val, by omega⟩ e)) X1 X2 X3 X4 a := by
  unfold k0_pay2
  rw [shapeCast_self]
  refine (regroup_apply _ _ p s a).trans ?_
  refine (softplus_vec_apply _ _).trans ?_
  refine congrArg Flow.softplus ?_
  refine (layer2_apply _ _ _ _ _ ⟨p.val * 17 + s.val, by omega⟩ a).trans ?_
  unfold Flow.logitRow
  refine congrArg (· + X4 (ix1 a)) (Finset.sum_congr rfl fun h _ => congrArg (· * X3 (ix2 h a)) ?_)
  exact layer1_apply _ _ _ _ _ ⟨p.val * 17 + s.val, by omega⟩ h

/-- Slot 0 summed over the actions. -/
theorem out_flow_apply (p : Fin 512) :
    k0_pay3 (F := Ideal) X0 X1 X2 X3 X4 (ix1 p) = ∑ a : Fin 16, k0_pay2 (F := Ideal) X0 X1 X2 X3 X4 (ix3 p (0 : Fin 17) a) := by
  unfold k0_pay3
  refine (sum16_apply _ _ _ p).trans (Finset.sum_congr rfl fun a _ => ?_)
  exact slot0_apply _ _ _ p a

/-- Slots 1..16. -/
theorem in_slots_apply (p : Fin 512) (i j : Fin 16) :
    k0_pay4 (F := Ideal) X0 X1 X2 X3 X4 (ix3 p i j) = k0_pay2 (F := Ideal) X0 X1 X2 X3 X4 (ix3 p ⟨1 + i.val, by omega⟩ j) := by
  unfold k0_pay4
  exact slots_apply _ _ p i j

/-- The 0/1 mask of the diagonal, with a leading unit axis. -/
theorem mask_apply (i j : Fin 16) :
    k0_pay5 (F := Ideal) (ix3 (0 : Fin 1) i j) = if i = j then 1 else 0 := by
  unfold k0_pay5
  refine (shapeCast_ab_1ab_apply _ _ 0 i j).trans ?_
  show ((((IntOp.cmpi .eq (iota .tc S16x16 32 [0] iota_S16x16_d0_w32 (ix2 i j)) (iota .tc S16x16 32 [1] iota_S16x16_d1_w32 (ix2 i j))).setWidth 32).toInt : ℝ) : EReal) = _
  rw [iota_single_apply, iota_single_apply]
  exact Flow.mask_val i j

end Payloads

/-! ## The stored block -/

section Store

variable (v37 : FVec Ideal S512 .f32) (v38 : FVec Ideal S512x16x16 .f32) (v44 : FVec Ideal S1x16x16 .f32)

/-- Row 0 of the stored block: the masked double sum over slots 1..16. -/
theorem store_row0_apply (p : Fin 512) :
    k0_pay1 (F := Ideal) v37 v38 v44 (ix2 (0 : Fin 2) p) = ∑ i : Fin 16, ∑ j : Fin 16, v38 (ix3 p i j) * v44 (ix3 (0 : Fin 1) i j) := by
  unfold k0_pay1
  dsimp only
  refine (concatenate_pair_apply_left (t := S2x512) (s₁ := S1x512) (s₂ := S1x512) (0 : Fin 2) _ _ concatenates_S1x512_S1x512_S2x512_d0 (ix2 (0 : Fin 2) p) rfl (ix2 (0 : Fin 1) p)
    (fun d => by match d with | ⟨0, _⟩ => rfl | ⟨1, _⟩ => rfl)).trans ?_
  refine (shapeCast_a_1a_apply _ _ 0 p).trans ?_
  refine (sum16_apply _ _ _ p).trans (Finset.sum_congr rfl fun i _ => ?_)
  refine (sum16x16_apply _ _ _ p i).trans (Finset.sum_congr rfl fun j _ => ?_)
  show v38 (ix3 p i j) * broadcastTo S512x16x16 v44 broadcasts_S1x16x16_S512x16x16 (ix3 p i j) = _
  refine congrArg (v38 (ix3 p i j) * ·) ?_
  exact broadcastTo_apply v44 broadcasts_S1x16x16_S512x16x16 _ _ (fun d => by
    match d with | ⟨0, _⟩ => rfl | ⟨1, _⟩ => rfl | ⟨2, _⟩ => rfl)

/-- Row 1 of the stored block: the slot-0 sums. -/
theorem store_row1_apply (p : Fin 512) :
    k0_pay1 (F := Ideal) v37 v38 v44 (ix2 (1 : Fin 2) p) = v37 (ix1 p) := by
  unfold k0_pay1
  dsimp only
  refine (concatenate_pair_apply_right (t := S2x512) (s₁ := S1x512) (s₂ := S1x512) (0 : Fin 2) _ _ concatenates_S1x512_S1x512_S2x512_d0 (ix2 (1 : Fin 2) p) rfl rfl (ix2 (0 : Fin 1) p)
    (fun d hd => by match d with | ⟨0, _⟩ => exact absurd rfl hd | ⟨1, _⟩ => rfl) rfl).trans ?_
  exact shapeCast_a_1a_apply _ _ 0 p

end Store

/-! ## The block, from the loaded input blocks -/

section Result

variable (X0 : Vec Ideal S8704x128 .f32) (X1 : Vec Ideal S128x128 .f32) (X2 : Vec Ideal S128 .f32)
  (X3 : Vec Ideal S128x16 .f32) (X4 : Vec Ideal S16 .f32)

/-- Row 0, column p: Σ_i of the flow of action i on block row 17p + 1 + i — the mask keeps one term of each inner sum. -/
theorem block_row0 (p : Fin 512) :
    k0_pay1 (F := Ideal) (k0_pay3 X0 X1 X2 X3 X4) (k0_pay4 X0 X1 X2 X3 X4) (k0_pay5 (F := Ideal)) (ix2 (0 : Fin 2) p)
      = ∑ i : Fin 16, Flow.flowRow (fun e => X0 (ix2 ⟨p.val * 17 + (1 + i.val), by omega⟩ e)) X1 X2 X3 X4 i := by
  rw [store_row0_apply]
  refine Finset.sum_congr rfl fun i _ => ?_
  simp only [mask_apply, in_slots_apply]
  rw [Flow.sum_mul_mask (fun j => k0_pay2 (F := Ideal) X0 X1 X2 X3 X4 (ix3 p ⟨1 + i.val, by omega⟩ j)) i, flows_apply]

/-- Row 1, column p: Σ_a of the flow of action a on block row 17p. -/
theorem block_row1 (p : Fin 512) :
    k0_pay1 (F := Ideal) (k0_pay3 X0 X1 X2 X3 X4) (k0_pay4 X0 X1 X2 X3 X4) (k0_pay5 (F := Ideal)) (ix2 (1 : Fin 2) p)
      = ∑ a : Fin 16, Flow.flowRow (fun e => X0 (ix2 ⟨p.val * 17 + 0, by omega⟩ e)) X1 X2 X3 X4 a := by
  rw [store_row1_apply, out_flow_apply]
  refine Finset.sum_congr rfl fun a _ => ?_
  rw [flows_apply]
  rfl

end Result

end Cert.KernelIdeal.Block

end
-- ==== Proof.KValue.lean ====
/-
  The kernel's result as one function of the argument arrays.

  The program flattens x to [557056, 128] (row R of the flat array is row (R / 17, R mod 17) of x), runs the body at the
  64 points of a one-axis grid, and transposes the [2, 32768] array the body's blocks fill into the [32768, 2] result.

  At point t the body is given rows 8704·t … 8704·t + 8703 of the flat array — the 17 slots of batch entries
  512·t … 512·t + 511 — and the four weight arrays whole; it writes columns 512·t … 512·t + 511 of the [2, 32768] array.
  So block t of that array is block t of ONE function of the arguments (Fin in row 0, Fout in row 1), the 64 blocks
  cover the array, and the array therefore ends as that function; transposed, it is the specified result.
-/
import proofs.«110767_j15925738733604_2_alg».proof.Proof.Gen.KernelIdeal.Frame
import proofs.«110767_j15925738733604_2_alg».proof.Proof.Block
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The flattened input -/

/-- What the region finds in the flat array: x regrouped by row-major position. -/
theorem flat_eq (c : Dev nD) :
    (V m c main_v0 : S557056x128.Idx → EReal)
      = shapeCast S557056x128 (m ((c : Thread nD τ).loc main_arg0)) shapeCasts_S32768x17x128_S557056x128 := by
  show StableHlo.after hostOps0 (fun b => m (c, b)) (Proc.devRef .tc main_v0) = _
  after_results
  rfl

/-- Row R of the flat array is row (R / 17, R mod 17) of x. -/
theorem flat_apply (c : Dev nD) (R : Fin 557056) (e : Fin 128) :
    (V m c main_v0 : S557056x128.Idx → EReal) (ix2 R e)
      = (m ((c : Thread nD τ).loc main_arg0) : S32768x17x128.Idx → EReal)
          (ix3 (⟨R.val / 17, by omega⟩ : Fin 32768) (⟨R.val % 17, by omega⟩ : Fin 17) e) := by
  rw [flat_eq]
  refine shapeCast_apply (s := S32768x17x128) (t := S557056x128) _ shapeCasts_S32768x17x128_S557056x128 (ix2 R e)
    (ix3 (⟨R.val / 17, by omega⟩ : Fin 32768) (⟨R.val % 17, by omega⟩ : Fin 17) e) ?_
  show (S32768x17x128.rowMajor (ix3 (⟨R.val / 17, by omega⟩ : Fin 32768) (⟨R.val % 17, by omega⟩ : Fin 17) e)).val
    = (S557056x128.rowMajor (ix2 R e)).val
  rw [Shape.rowMajor_val_three, Shape.rowMajor_val_two]
  show (R.val / 17 * 17 + R.val % 17) * 128 + e.val = R.val * 128 + e.val
  omega

/-! ## Which block each window holds at a point -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input rows and the output columns move with the point; the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = t.val :=
  (by decide +kernel : ∀ t : Fin grid0.N, _)

/-- Row r of the input block at point t is row 8704·t + r of the flat array. -/
theorem in_block_apply (c : Dev nD) (t : Fin cfg0.N) (r : Fin 8704) (e : Fin 128) (hR : t.val * 8704 + r.val < 557056) :
    (iblk m c 0 t : S8704x128.Idx → EReal) (ix2 r e) = (V m c main_v0 : S557056x128.Idx → EReal) (ix2 ⟨t.val * 8704 + r.val, hR⟩ e) := by
  obtain ⟨e0, e1, -⟩ := idx_facts t
  show V m c main_v0 (((cfg0.win 0).blk t).view.emb (ix2 r e)) = V m c main_v0 (ix2 ⟨t.val * 8704 + r.val, hR⟩ e)
  refine congrArg (V m c main_v0) (funext fun a => Fin.ext ?_)
  match a with
  | ⟨0, _⟩ => show win0_0.index t (0 : Fin 2) * 8704 + 1 * r.val = t.val * 8704 + r.val; rw [e0]; omega
  | ⟨1, _⟩ => show win0_0.index t (1 : Fin 2) * 128 + 1 * e.val = e.val; rw [e1]; omega

/-- The weight windows hold their whole arrays at every point. -/
theorem w1_block (c : Dev nD) (t : Fin cfg0.N) : (iblk m c 1 t : S128x128.Idx → EReal) = V m c main_arg1 := by
  obtain ⟨-, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem b1_block (c : Dev nD) (t : Fin cfg0.N) : (iblk m c 2 t : S128.Idx → EReal) = V m c main_arg2 := by
  obtain ⟨-, -, -, -, e0, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 128 + 1 * (y 0).val = (y 0).val; rw [e0]; omega

theorem w2_block (c : Dev nD) (t : Fin cfg0.N) : (iblk m c 3 t : S128x16.Idx → EReal) = V m c main_arg3 := by
  obtain ⟨-, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; rw [e0]; omega
  | ⟨1, _⟩ => show win0_3.index t (1 : Fin 2) * 16 + 1 * (y 1).val = (y 1).val; rw [e1]; omega

theorem b2_block (c : Dev nD) (t : Fin cfg0.N) : (iblk m c 4 t : S16.Idx → EReal) = V m c main_arg4 := by
  obtain ⟨-, -, -, -, -, -, -, e0, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 16 + 1 * (y 0).val = (y 0).val; rw [e0]; omega

/-! ## One point -/

/-- If a block of 8704 rows is rows 8704·T … of the flat x, its stored [2, 512] block is columns 512·T … of the
    transposed result: batch entry 512·T + p owns block rows 17p … 17p + 16. Stated over plain arrays. -/
theorem point_eq (X0 : Vec Ideal S8704x128 .f32) (X1 : Vec Ideal S128x128 .f32) (X2 : Vec Ideal S128 .f32)
    (X3 : Vec Ideal S128x16 .f32) (X4 : Vec Ideal S16 .f32) (x : S32768x17x128.Idx → EReal) (T : Nat) (hT : T < 64)
    (h0 : ∀ (r : Fin 8704) (e : Fin 128),
      X0 (ix2 r e) = x (ix3 (⟨(T * 8704 + r.val) / 17, by omega⟩ : Fin 32768) (⟨(T * 8704 + r.val) % 17, by omega⟩ : Fin 17) e))
    (q : Fin 2) (p : Fin 512) :
    k0_pay1 (F := Ideal) (k0_pay3 X0 X1 X2 X3 X4) (k0_pay4 X0 X1 X2 X3 X4) (k0_pay5 (F := Ideal)) (ix2 q p)
      = Flow.resultT x X1 X2 X3 X4 (ix2 q (⟨T * 512 + p.val, by omega⟩ : Fin 32768)) := by
  match q with
  | ⟨0, _⟩ =>
    refine (Block.block_row0 X0 X1 X2 X3 X4 p).trans ?_
    show _ = Flow.fin x X1 X2 X3 X4 ⟨T * 512 + p.val, _⟩
    unfold Flow.fin Flow.flow
    refine Finset.sum_congr rfl fun i _ => ?_
    refine congrArg (fun xr => Flow.flowRow xr X1 X2 X3 X4 i) (funext fun e => ?_)
    rw [h0]
    refine congrArg x (funext fun a => Fin.ext ?_)
    have hp : p.val < 512 := p.isLt
    have hi : i.val < 16 := i.isLt
    match a with
    | ⟨0, _⟩ => show (T * 8704 + (p.val * 17 + (1 + i.val))) / 17 = T * 512 + p.val; omega
    | ⟨1, _⟩ => show (T * 8704 + (p.val * 17 + (1 + i.val))) % 17 = 1 + i.val; omega
    | ⟨2, _⟩ => rfl
  | ⟨1, _⟩ =>
    refine (Block.block_row1 X0 X1 X2 X3 X4 p).trans ?_
    show _ = Flow.fout x X1 X2 X3 X4 ⟨T * 512 + p.val, _⟩
    unfold Flow.fout Flow.flow
    refine Finset.sum_congr rfl fun a _ => ?_
    refine congrArg (fun xr => Flow.flowRow xr X1 X2 X3 X4 a) (funext fun e => ?_)
    rw [h0]
    refine congrArg x (funext fun d => Fin.ext ?_)
    have hp : p.val < 512 := p.isLt
    match d with
    | ⟨0, _⟩ => show (T * 8704 + (p.val * 17 + 0)) / 17 = T * 512 + p.val; omega
    | ⟨1, _⟩ => show (T * 8704 + (p.val * 17 + 0)) % 17 = 0; omega
    | ⟨2, _⟩ => rfl

/-! ## What each point writes back, and the whole array -/

/-- The transposed result, of the arrays as the region finds them. -/
abbrev GT (c : Dev nD) : S2x32768.Idx → EReal :=
  Flow.resultT (m ((c : Thread nD τ).loc main_arg0)) (V m c main_arg1) (V m c main_arg2) (V m c main_arg3) (V m c main_arg4)

/-- What point t writes back is block t of the transposed result. -/
theorem flushed_eq (c : Dev nD) (t : Fin cfg0.N) :
    (dats m 0 c).flushed 5 t = ((cfg0.win 5).blk t).view.read (Elt Ideal) (GT m c) := by
  have hN : cfg0.N = 64 := N_0
  have ht : t.val < 64 := by have h := t.isLt; omega
  show (cfg0.win 5).cut (grid0.coords t) ((dats m 0 c).after 5 t) = _
  rw [after0_5]
  unfold out0_5
  rw [View.canon_unit_zero hz2]
  simp only [View.ld_unit_zero (S := S8704x128) hz2, View.ld_unit_zero (S := S128x128) hz2, View.ld_unit_zero (S := S128) hz1,
    View.ld_unit_zero (S := S128x16) hz2, View.ld_unit_zero (S := S16) hz1]
  rw [w1_block, b1_block, w2_block, b2_block]
  funext y
  obtain ⟨q, p, rfl⟩ : ∃ (q : Fin 2) (p : Fin 512), y = ix2 q p := ⟨y 0, y 1, eq_ix2 y⟩
  refine (point_eq (iblk m c 0 t) (V m c main_arg1) (V m c main_arg2) (V m c main_arg3) (V m c main_arg4)
    (m ((c : Thread nD τ).loc main_arg0)) t.val ht (fun r e => ?_) q p).trans ?_
  · exact (in_block_apply m c t r e (by have := r.isLt; omega)).trans (flat_apply m c _ e)
  · obtain ⟨-, -, -, -, -, -, -, -, e0, e1⟩ := idx_facts t
    show GT m c (ix2 q ⟨t.val * 512 + p.val, _⟩) = GT m c (((cfg0.win 5).blk t).view.emb (ix2 q p))
    refine congrArg (GT m c) (funext fun a => Fin.ext ?_)
    match a with
    | ⟨0, _⟩ => show q.val = win0_5.index t (0 : Fin 2) * 2 + 1 * q.val; rw [e0]; omega
    | ⟨1, _⟩ => show t.val * 512 + p.val = win0_5.index t (1 : Fin 2) * 512 + 1 * p.val; rw [e1]; omega

/-- An index of the [2, 32768] array is in point t's block iff each coordinate is in the block's range. -/
theorem mem_blk (t : Fin cfg0.N) (i : S2x32768.Idx) :
    i ∈ ((cfg0.win 5).blk t).view.set ↔ ∀ a : Fin 2, win0_5.index t a * S2x512.size a ≤ (i a).val ∧ (i a).val < win0_5.index t a * S2x512.size a + S2x512.size a := by
  show i ∈ ((View.whole main_v1).slice (win0_5.rect t)).set ↔ _
  rw [View.set_slice_whole, Rect.mem_set_unit]
  exact Iff.rfl

/-- Column j lies in the block of point j / 512: the 64 blocks cover the array. -/
theorem cover (i : S2x32768.Idx) : ∃ t : Fin cfg0.N, (cfg0.win 5).flush t = true ∧ i ∈ ((cfg0.win 5).blk t).view.set := by
  have hN : grid0.N = 64 := N_0
  have hi0 : (i 0).val < 2 := (i 0).isLt
  have hi1 : (i 1).val < 32768 := (i 1).isLt
  have hlt : (i 1).val / 512 < cfg0.N := by show (i 1).val / 512 < grid0.N; omega
  refine ⟨⟨(i 1).val / 512, hlt⟩, flush0_5 _, ?_⟩
  rw [mem_blk]
  obtain ⟨-, -, -, -, -, -, -, -, e0, e1⟩ := idx_facts ⟨(i 1).val / 512, hlt⟩
  intro a
  match a with
  | ⟨0, _⟩ =>
    show win0_5.index ⟨(i 1).val / 512, hlt⟩ (0 : Fin 2) * 2 ≤ (i 0).val ∧ (i 0).val < win0_5.index ⟨(i 1).val / 512, hlt⟩ (0 : Fin 2) * 2 + 2
    rw [e0]; omega
  | ⟨1, _⟩ =>
    show win0_5.index ⟨(i 1).val / 512, hlt⟩ (1 : Fin 2) * 512 ≤ (i 1).val ∧ (i 1).val < win0_5.index ⟨(i 1).val / 512, hlt⟩ (1 : Fin 2) * 512 + 512
    rw [e1]
    show (i 1).val / 512 * 512 ≤ (i 1).val ∧ (i 1).val < (i 1).val / 512 * 512 + 512
    omega

/-- The [2, 32768] array after the region: the transposed result. -/
theorem final (c : Dev nD) : (dats m 0 c).arrAt 5 cfg0.N = GT m c :=
  (dats m 0 c).arrAt_eq_of_cover 5 (GT m c) (fun t _ => flushed_eq m c t) cover

/-! ## The transpose after the region, and the run -/

/-- The specified result, of the arrays at launch. -/
abbrev G (c : Dev nD) : S32768x2.Idx → EReal :=
  Flow.result (m ((c : Thread nD τ).loc main_arg0)) (m ((c : Thread nD τ).loc main_arg1)) (m ((c : Thread nD τ).loc main_arg2))
    (m ((c : Thread nD τ).loc main_arg3)) (m ((c : Thread nD τ).loc main_arg4))

/-- The result buffer after the transpose that follows the region. -/
theorem tail_eq (c : Dev nD) : Pipeline.afterTail₀ cfgs (dats m) 0 (V0 m) [hostOps1] c main_v2 = G m c := by
  unfold Pipeline.afterTail₀
  show StableHlo.after hostOps1 _ (Proc.devRef .tc main_v2) = _
  after_results
  show transpose S32768x2 [1, 0] (Pipeline.withArrays (cfgs 0).spec c (V0 m c) (fun w => (dats m 0 c).arrAt w (cfgs 0).N)
      (Proc.devRef .tc (Pipeline.arrRef spec0 5))) transposes_S2x32768_S32768x2_1_0 = _
  rw [Pipeline.withArrays_arr spec0 launch0.win.arr_inj c _ _ 5, final]
  funext j
  obtain ⟨b, q, rfl⟩ : ∃ (b : Fin 32768) (q : Fin 2), j = ix2 b q := ⟨j 0, j 1, eq_ix2 j⟩
  refine (transpose_ix2_apply _ _ b q).trans ?_
  show Flow.resultT _ (V m c main_arg1) (V m c main_arg2) (V m c main_arg3) (V m c main_arg4) (ix2 q b) = _
  rw [V_main_arg1, V_main_arg2, V_main_arg3, V_main_arg4]
  rfl

/-- The kernel's run: it terminates, the result buffer holds the specified function of the arguments, and the
    arguments are unchanged. -/
theorem run : θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v2 (Pipeline.mem_restRefs_of main_v2 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.KernelIdeal.KValue

end
-- ==== Proof.RefValue.lean ====
/-
  The reference's result, index by index, is the specified function.

  The reference runs the two layers and softplus on the rank-3 input, giving flows of shape [32768, 17, 16]; sums slot 0
  over the actions (Fout); gathers the diagonal entries (1 + i, i) of slots 1..16 with a start-index table whose row i is
  (i, i), and sums them (Fin); and joins the two columns. Read stage by stage:

    * each layer's matrix product at (b, s, ·) is a sum over the 128 contracted coordinates of row (b, s);
    * the guarded softplus is softplus (the guard compares a value with itself);
    * a float sum from a zero initial value is the plain sum;
    * the start-index table holds the word i at (i, 0) and (i, 1) — the "add 16 if negative" normalisation never fires
      for 0 ≤ i < 16 — so the gather reads the operand at (b, i, i), the clamp to [0, 15] being the identity there.
-/
import proofs.«110767_j15925738733604_2_alg».proof.Proof.RefRead
import proofs.«110767_j15925738733604_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable (x0 : (⟨S32768x17x128, .f32⟩ : BufTy).Contents (Elt Ideal)) (x1 : (⟨S128x128, .f32⟩ : BufTy).Contents (Elt Ideal))
  (x2 : (⟨S128, .f32⟩ : BufTy).Contents (Elt Ideal)) (x3 : (⟨S128x16, .f32⟩ : BufTy).Contents (Elt Ideal))
  (x4 : (⟨S16, .f32⟩ : BufTy).Contents (Elt Ideal))

/-! ## The two layers -/

/-- The hidden units of row (b, s). -/
theorem hidden_apply (b : Fin 32768) (s : Fin 17) (h : Fin 128) :
    val_main_v4 (F := Ideal) x0 x1 x2 (ix3 b s h) = Flow.hiddenRow (fun e => x0 (ix3 b s e)) x1 x2 h := by
  have e1 : ∀ k : Fin 128, lidx_main_v0 (ix3 b s h) k = ix3 b s k := fun k => funext fun a => Fin.ext (by
    match a with | ⟨0, _⟩ => rfl | ⟨1, _⟩ => rfl | ⟨2, _⟩ => rfl)
  have e2 : ∀ k : Fin 128, ridx_main_v0 (ix3 b s h) k = ix2 k h := fun k => funext fun a => Fin.ext (by
    match a with | ⟨0, _⟩ => rfl | ⟨1, _⟩ => rfl)
  have e3 : idx_main_v1 (idx_main_v2 (ix3 b s h)) = ix1 h := funext fun a => Fin.ext (by
    match a with | ⟨0, _⟩ => rfl)
  rw [val_main_v4_apply, val_main_v3_apply, val_main_v0_apply, val_main_v2_apply, val_main_v1_apply, e3]
  simp only [e1, e2]
  show max (_ + _) (Ideal.ofBits .f32 0x00000000#32) = _
  rw [Ideal.ofBits_zero_f32]
  rfl

/-- The logits of row (b, s). -/
theorem logit_apply (b : Fin 32768) (s : Fin 17) (a : Fin 16) :
    val_main_v8 (F := Ideal) x0 x1 x2 x3 x4 (ix3 b s a) = Flow.logitRow (fun e => x0 (ix3 b s e)) x1 x2 x3 x4 a := by
  have e1 : ∀ k : Fin 128, lidx_main_v5 (ix3 b s a) k = ix3 b s k := fun k => funext fun c => Fin.ext (by
    match c with | ⟨0, _⟩ => rfl | ⟨1, _⟩ => rfl | ⟨2, _⟩ => rfl)
  have e2 : ∀ k : Fin 128, ridx_main_v5 (ix3 b s a) k = ix2 k a := fun k => funext fun c => Fin.ext (by
    match c with | ⟨0, _⟩ => rfl | ⟨1, _⟩ => rfl)
  have e3 : idx_main_v6 (idx_main_v7 (ix3 b s a)) = ix1 a := funext fun c => Fin.ext (by
    match c with | ⟨0, _⟩ => rfl)
  rw [val_main_v8_apply, val_main_v5_apply, val_main_v7_apply, val_main_v6_apply, e3]
  simp only [e1, e2, hidden_apply]
  rfl

/-- The flows: the guarded softplus of the logits is softplus. -/
theorem flow_apply (b : Fin 32768) (s : Fin 17) (a : Fin 16) :
    val_main_v9 (F := Ideal) x0 x1 x2 x3 x4 (ix3 b s a) = Flow.flow x0 x1 x2 x3 x4 b s a := by
  refine (Flow.softplus_of_neg (val_main_v8 (F := Ideal) x0 x1 x2 x3 x4 (ix3 b s a)) _ Ideal.ofBits_zero_f32).trans ?_
  rw [logit_apply]
  rfl

/-! ## Fout: slot 0 summed over the actions -/

theorem fout_apply (b : Fin 32768) : val_main_v12 (F := Ideal) x0 x1 x2 x3 x4 (ix1 b) = Flow.fout x0 x1 x2 x3 x4 b := by
  rw [val_main_v12_apply]
  show Ideal.ofBits .f32 0x00000000#32 + _ = _
  rw [Ideal.ofBits_zero_f32, zero_add]
  refine Finset.sum_congr rfl fun k _ => ?_
  have e : idx_main_v10 (idx_main_v11 (idx_main_v12 (ix1 b) k)) = ix3 b (0 : Fin 17) k := funext fun c => Fin.ext (by
    have hb : b.val < 32768 := b.isLt
    have hk : k.val < 16 := k.isLt
    match c with
    | ⟨0, _⟩ => show (b.val * 16 + k.val) / 16 = b.val; omega
    | ⟨1, _⟩ => rfl
    | ⟨2, _⟩ => show (b.val * 16 + k.val) % 16 = k.val; omega)
  rw [val_main_v11_apply, val_main_v10_apply, e, flow_apply]

/-! ## Fin: the diagonal of slots 1..16 -/

/-- The index normalisation "i + 16 if i < 0 else i" leaves 0 ≤ i < 16 alone. -/
theorem norm_index : ∀ k : Fin 16,
    Scalar.select (IntOp.cmpi .slt (BitVec.ofNat 32 k.val) 0#32) (IntOp.addi (BitVec.ofNat 32 k.val) 16#32) (BitVec.ofNat 32 k.val)
      = BitVec.ofNat 32 k.val := by
  decide

/-- Read signed and clamped to [0, 15], the word i is i. -/
theorem clamp_index : ∀ k : Fin 16, min (BitVec.ofNat 32 k.val).toInt.toNat (16 - 1) = k.val := by
  decide

/-- Row i of the start-index table is (i, i). -/
theorem table_apply (k : Fin 16) (c : Fin 2) : val_main_call2_v14 (F := Ideal) (ix2 k c) = BitVec.ofNat 32 k.val := by
  unfold val_main_call2_v14
  match c with
  | ⟨0, _⟩ =>
    refine (concatenate_pair_apply_left (t := S16x2) (s₁ := S16x1) (s₂ := S16x1) (1 : Fin 2) _ _ concatenates_S16x1_S16x1_S16x2_d1 (ix2 k (0 : Fin 2)) rfl (ix2 k (0 : Fin 1))
      (fun d => by match d with | ⟨0, _⟩ => rfl | ⟨1, _⟩ => rfl)).trans ?_
    have e : idx_main_call2_v12 (ix2 k (0 : Fin 1)) = ix1 k := funext fun d => Fin.ext (by match d with | ⟨0, _⟩ => rfl)
    rw [val_main_call2_v12_apply, e]
    exact norm_index k
  | ⟨1, _⟩ =>
    refine (concatenate_pair_apply_right (t := S16x2) (s₁ := S16x1) (s₂ := S16x1) (1 : Fin 2) _ _ concatenates_S16x1_S16x1_S16x2_d1 (ix2 k (1 : Fin 2)) rfl rfl (ix2 k (0 : Fin 1))
      (fun d hd => by match d with | ⟨0, _⟩ => rfl | ⟨1, _⟩ => exact absurd rfl hd) rfl).trans ?_
    have e : idx_main_call2_v13 (ix2 k (0 : Fin 1)) = ix1 k := funext fun d => Fin.ext (by match d with | ⟨0, _⟩ => rfl)
    rw [val_main_call2_v13_apply, e]
    exact norm_index k

/-! ### The gather, axis by axis

Result entry (b, i) reads the operand where each axis's coordinate is: the clamped start index on the axes the start
index map names (1 and 2: the table's row i), plus the result's own coordinate on the remaining axis (0: b). -/

theorem gather_axis0 {w : Nat} (idx : IVec S16x2 w) (b : Fin 32768) (k : Fin 16) :
    (gather_S32768x16x16_S16x2_S32768x16_0_12_n_n_12_1_3276811.operandIdx (ix2 b k) idx 0).val = b.val := by
  show gather_S32768x16x16_S16x2_S32768x16_0_12_n_n_12_1_3276811.start (ix2 b k) idx 0 + gather_S32768x16x16_S16x2_S32768x16_0_12_n_n_12_1_3276811.batchCoord (ix2 b k) 0 + gather_S32768x16x16_S16x2_S32768x16_0_12_n_n_12_1_3276811.offCoord (ix2 b k) 0 = b.val
  rw [GatherDims.batchCoord_eq_zero _ _ _ List.not_mem_nil]
  unfold GatherDims.start
  rw [dif_neg (by decide : ¬ (0 : Fin S32768x16x16.rank) ∈ gather_S32768x16x16_S16x2_S32768x16_0_12_n_n_12_1_3276811.startIndexMap)]
  unfold GatherDims.offCoord
  rw [dif_pos (by decide : (0 : Fin S32768x16x16.rank) ∈ gather_S32768x16x16_S16x2_S32768x16_0_12_n_n_12_1_3276811.sKept)]
  simp only [Nat.add_zero, Nat.zero_add]
  rfl

theorem gather_axis1 (b : Fin 32768) (k : Fin 16) :
    (gather_S32768x16x16_S16x2_S32768x16_0_12_n_n_12_1_3276811.operandIdx (ix2 b k) (val_main_call2_v14 (F := Ideal)) 1).val = k.val := by
  show gather_S32768x16x16_S16x2_S32768x16_0_12_n_n_12_1_3276811.start (ix2 b k) _ 1 + gather_S32768x16x16_S16x2_S32768x16_0_12_n_n_12_1_3276811.batchCoord (ix2 b k) 1 + gather_S32768x16x16_S16x2_S32768x16_0_12_n_n_12_1_3276811.offCoord (ix2 b k) 1 = k.val
  rw [GatherDims.batchCoord_eq_zero _ _ _ List.not_mem_nil,
    GatherDims.offCoord_eq_zero _ _ _ (by decide : (1 : Fin S32768x16x16.rank) ∉ gather_S32768x16x16_S16x2_S32768x16_0_12_n_n_12_1_3276811.sKept)]
  simp only [Nat.add_zero]
  unfold GatherDims.start
  rw [dif_pos (by decide : (1 : Fin S32768x16x16.rank) ∈ gather_S32768x16x16_S16x2_S32768x16_0_12_n_n_12_1_3276811.startIndexMap)]
  have hsi : gather_S32768x16x16_S16x2_S32768x16_0_12_n_n_12_1_3276811.siIdx (ix2 b k) ⟨List.idxOf (1 : Fin S32768x16x16.rank) gather_S32768x16x16_S16x2_S32768x16_0_12_n_n_12_1_3276811.startIndexMap,
      List.idxOf_lt_length_iff.2 (by decide)⟩ = ix2 k (0 : Fin 2) := by
    funext d; refine Fin.ext ?_
    match d with
    | ⟨0, _⟩ => rfl
    | ⟨1, _⟩ => rfl
  rw [hsi, table_apply]
  exact clamp_index k

theorem gather_axis2 (b : Fin 32768) (k : Fin 16) :
    (gather_S32768x16x16_S16x2_S32768x16_0_12_n_n_12_1_3276811.operandIdx (ix2 b k) (val_main_call2_v14 (F := Ideal)) 2).val = k.val := by
  show gather_S32768x16x16_S16x2_S32768x16_0_12_n_n_12_1_3276811.start (ix2 b k) _ 2 + gather_S32768x16x16_S16x2_S32768x16_0_12_n_n_12_1_3276811.batchCoord (ix2 b k) 2 + gather_S32768x16x16_S16x2_S32768x16_0_12_n_n_12_1_3276811.offCoord (ix2 b k) 2 = k.val
  rw [GatherDims.batchCoord_eq_zero _ _ _ List.not_mem_nil,
    GatherDims.offCoord_eq_zero _ _ _ (by decide : (2 : Fin S32768x16x16.rank) ∉ gather_S32768x16x16_S16x2_S32768x16_0_12_n_n_12_1_3276811.sKept)]
  simp only [Nat.add_zero]
  unfold GatherDims.start
  rw [dif_pos (by decide : (2 : Fin S32768x16x16.rank) ∈ gather_S32768x16x16_S16x2_S32768x16_0_12_n_n_12_1_3276811.startIndexMap)]
  have hsi : gather_S32768x16x16_S16x2_S32768x16_0_12_n_n_12_1_3276811.siIdx (ix2 b k) ⟨List.idxOf (2 : Fin S32768x16x16.rank) gather_S32768x16x16_S16x2_S32768x16_0_12_n_n_12_1_3276811.startIndexMap,
      List.idxOf_lt_length_iff.2 (by decide)⟩ = ix2 k (1 : Fin 2) := by
    funext d; refine Fin.ext ?_
    match d with
    | ⟨0, _⟩ => rfl
    | ⟨1, _⟩ => rfl
  rw [hsi, table_apply]
  exact clamp_index k

/-- The gather reads the diagonal: result (b, i) is the operand at (b, i, i). -/
theorem diag_apply {α : Type} (X : S32768x16x16.Idx → α) (b : Fin 32768) (k : Fin 16) :
    Host.gather gather_S32768x16x16_S16x2_S32768x16_0_12_n_n_12_1_3276811 X (val_main_call2_v14 (F := Ideal)) (ix2 b k) = X (ix3 b k k) := by
  unfold Host.gather
  refine congrArg X (funext fun a => Fin.ext ?_)
  match a with
  | ⟨0, _⟩ => exact gather_axis0 _ b k
  | ⟨1, _⟩ => exact gather_axis1 b k
  | ⟨2, _⟩ => exact gather_axis2 b k

theorem fin_apply (b : Fin 32768) : val_main_v15 (F := Ideal) x0 x1 x2 x3 x4 (ix1 b) = Flow.fin x0 x1 x2 x3 x4 b := by
  rw [val_main_v15_apply]
  show Ideal.ofBits .f32 0x00000000#32 + _ = _
  rw [Ideal.ofBits_zero_f32, zero_add]
  refine Finset.sum_congr rfl fun k _ => ?_
  have e0 : idx_main_v15 (ix1 b) k = ix2 b k := funext fun d => Fin.ext (by
    match d with | ⟨0, _⟩ => rfl | ⟨1, _⟩ => rfl)
  have e1 : idx_main_v13 (ix3 b k k) = ix3 b (⟨1 + k.val, by omega⟩ : Fin 17) k := funext fun d => Fin.ext (by
    match d with | ⟨0, _⟩ => rfl | ⟨1, _⟩ => rfl | ⟨2, _⟩ => rfl)
  rw [e0]
  unfold val_main_v14
  rw [diag_apply, val_main_v13_apply, e1, flow_apply]

/-! ## The result -/

/-- The reference's result array is the specified function: column 0 is Fin, column 1 is Fout. -/
theorem result_eq : val_main_v18 (F := Ideal) x0 x1 x2 x3 x4 = Flow.result x0 x1 x2 x3 x4 := by
  funext j
  obtain ⟨b, q, rfl⟩ : ∃ (b : Fin 32768) (q : Fin 2), j = ix2 b q := ⟨j 0, j 1, eq_ix2 j⟩
  unfold val_main_v18
  match q with
  | ⟨0, _⟩ =>
    refine (concatenate_pair_apply_left (t := S32768x2) (s₁ := S32768x1) (s₂ := S32768x1) (1 : Fin 2) _ _ concatenates_S32768x1_S32768x1_S32768x2_d1 (ix2 b (0 : Fin 2)) rfl (ix2 b (0 : Fin 1))
      (fun d => by match d with | ⟨0, _⟩ => rfl | ⟨1, _⟩ => rfl)).trans ?_
    have e : idx_main_v16 (ix2 b (0 : Fin 1)) = ix1 b := funext fun d => Fin.ext (by match d with | ⟨0, _⟩ => rfl)
    rw [val_main_v16_apply, e, fin_apply]
    rfl
  | ⟨1, _⟩ =>
    refine (concatenate_pair_apply_right (t := S32768x2) (s₁ := S32768x1) (s₂ := S32768x1) (1 : Fin 2) _ _ concatenates_S32768x1_S32768x1_S32768x2_d1 (ix2 b (1 : Fin 2)) rfl rfl (ix2 b (0 : Fin 1))
      (fun d hd => by match d with | ⟨0, _⟩ => rfl | ⟨1, _⟩ => exact absurd rfl hd) rfl).trans ?_
    have e : idx_main_v17 (ix2 b (0 : Fin 1)) = ix1 b := funext fun d => Fin.ext (by match d with | ⟨0, _⟩ => rfl)
    rw [val_main_v17_apply, e, fout_apply]
    rfl

end Cert.ReferenceIdeal.RefValue

end
-- ==== Proof.lean ====
/-
  Two programs compute, for every batch entry b of 32768, the pair (Fin b, Fout b): every row (b, s) of the input x
  (17 neighbour slots per entry, 128 features per row) goes through relu (x·W1 + b1), then softplus (·W2 + b2), which
  gives 16 positive flows per row; Fout b is the sum of the flows of slot 0, and Fin b is the sum over i of flow i of
  slot 1 + i.

  The kernel works on the input flattened to 557056 rows, 8704 rows (512 entries) per grid point, takes the diagonal by
  multiplying the [16, 16] slab of slots 1..16 with a 0/1 mask and summing, writes a [2, 32768] array block by block and
  transposes it at the end. The reference keeps the input as [32768, 17, 128], gathers the diagonal with a table of start
  indices, and joins the two columns.

  On the extended reals the two are one function (Proof/Spec.lean): a matrix product is the sum over the contracted
  axis whatever the grouping of the rows; a change of float format is the identity; the guard of softplus compares a
  value with itself and never fires; 0 − y = −y; and y · 0 = 0, y · 1 = y, so the masked sum is the diagonal entry. None
  of these needs the inputs finite, so the precondition is not opened.

    * Proof/Block.lean    what the kernel's body leaves in its [2, 512] block, from the blocks it loads;
    * Proof/KValue.lean   the blocks cover the [2, 32768] array, which therefore ends as one function of the arguments;
                          transposed, it is the result; the kernel's run;
    * Proof/RefRun.lean, Proof/RefRead.lean   the reference's run and its operations read at an index;
    * Proof/RefValue.lean the reference's result is the same function.

  The three frame claims are the generated frames (for the reference, its run with the result dropped); the ideal pass
  rewrote nothing, so the kernel's idealization is its own text and that claim is trivial.
-/
import proofs.«110767_j15925738733604_2_alg».proof.Defs
import proofs.«110767_j15925738733604_2_alg».proof.Proof.Gen.Kernel
import proofs.«110767_j15925738733604_2_alg».proof.Proof.Gen.Kernel.Skeleton
import proofs.«110767_j15925738733604_2_alg».proof.Proof.Gen.Kernel.Launch
import proofs.«110767_j15925738733604_2_alg».proof.Proof.Gen.Kernel.Points
import proofs.«110767_j15925738733604_2_alg».proof.Proof.Gen.Kernel.Frame
import proofs.«110767_j15925738733604_2_alg».proof.Proof.Gen.KernelIdeal
import proofs.«110767_j15925738733604_2_alg».proof.Proof.Gen.KernelIdeal.Skeleton
import proofs.«110767_j15925738733604_2_alg».proof.Proof.Gen.KernelIdeal.Launch
import proofs.«110767_j15925738733604_2_alg».proof.Proof.Gen.KernelIdeal.Points
import proofs.«110767_j15925738733604_2_alg».proof.Proof.Gen.KernelIdeal.Frame
import proofs.«110767_j15925738733604_2_alg».proof.Proof.Gen.ReferenceIdeal
import proofs.«110767_j15925738733604_2_alg».proof.Proof.Gen.Pre_finite_inputs
import proofs.«110767_j15925738733604_2_alg».proof.Proof.KValue
import proofs.«110767_j15925738733604_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with what it says of the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- No operation was rewritten when the kernel was read on the extended reals. -/
theorem preserves : Cert.preserves_Kernel_KernelIdeal := trivial

/-- From memories that agree on the five arguments, both programs end with the result buffer at row b = (Fin b, Fout b)
    of those arguments. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
